-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4000x512 : Shape := ⟨3, ![32, 4000, 512]⟩
abbrev S257x512 : Shape := ⟨2, ![257, 512]⟩
abbrev S_ : Shape := ⟨0, ![]⟩

class Facts : Prop where
  bcast_S_S32x4000x512 : S_.BroadcastsInDim S32x4000x512 (![] : Fin 0 → Fin S32x4000x512.rank)
  reducesTo_S32x4000x512_S_d0_1_2 : S32x4000x512.ReducesTo [0, 1, 2] S_
  h_S_ : 0 < S_.numel
  bcast_S_S257x512 : S_.BroadcastsInDim S257x512 (![] : Fin 0 → Fin S257x512.rank)
  reducesTo_S257x512_S_d0_1 : S257x512.ReducesTo [0, 1] S_

variable [Facts]

def fn {F : FTy → Type} [FloatOps F] (main_arg0 : FVec F S32x4000x512 .f32) (main_arg1 : FVec F S257x512 .f32) (main_arg2 : FVec F S257x512 .f32) : IVec S_ 1 :=
  let main_v0 : FVec F S32x4000x512 .f32 := Host.absf main_arg0
  let main_cst : FVec F S_ .f32 := constant S_ .f32 0x7F800000#32
  let main_v1 : FVec F S32x4000x512 .f32 := broadcastInDim S32x4000x512 ![] bcast_S_S32x4000x512 main_cst
  let main_v2 : IVec S32x4000x512 1 := cmpf .olt main_v0 main_v1
  let main_c : IVec S_ 1 := constantI S_ 1 1#1
  let main_v3 : IVec S_ 1 := (fun x v => Host.reduce IntOp.andi x v reducesTo_S32x4000x512_S_d0_1_2 h_S_) main_v2 main_c
  let main_v4 : FVec F S257x512 .f32 := Host.absf main_arg1
  let main_cst_0 : FVec F S_ .f32 := constant S_ .f32 0x7F800000#32
  let main_v5 : FVec F S257x512 .f32 := broadcastInDim S257x512 ![] bcast_S_S257x512 main_cst_0
  let main_v6 : IVec S257x512 1 := cmpf .olt main_v4 main_v5
  let main_c_1 : IVec S_ 1 := constantI S_ 1 1#1
  let main_v7 : IVec S_ 1 := (fun x v => Host.reduce IntOp.andi x v reducesTo_S257x512_S_d0_1 h_S_) main_v6 main_c_1
  let main_v8 : IVec S_ 1 := andi main_v3 main_v7
  let main_v9 : FVec F S257x512 .f32 := Host.absf main_arg2
  let main_cst_2 : FVec F S_ .f32 := constant S_ .f32 0x7F800000#32
  let main_v10 : FVec F S257x512 .f32 := broadcastInDim S257x512 ![] bcast_S_S257x512 main_cst_2
  let main_v11 : IVec S257x512 1 := cmpf .olt main_v9 main_v10
  let main_c_3 : IVec S_ 1 := constantI S_ 1 1#1
  let main_v12 : IVec S_ 1 := (fun x v => Host.reduce IntOp.andi x v reducesTo_S257x512_S_d0_1 h_S_) main_v11 main_c_3
  let main_v13 : IVec S_ 1 := andi main_v8 main_v12
  main_v13
-- ==== Kernel.lean ====
abbrev S32x4000x512 : Shape := ⟨3, ![32, 4000, 512]⟩
abbrev S257x512 : Shape := ⟨2, ![257, 512]⟩
abbrev S128000x512 : Shape := ⟨2, ![128000, 512]⟩
abbrev S512x257 : Shape := ⟨2, ![512, 257]⟩
abbrev S_ : Shape := ⟨0, ![]⟩
abbrev S512x768 : Shape := ⟨2, ![512, 768]⟩
abbrev S1 : Shape := ⟨1, ![1]⟩
abbrev S128000x257 : Shape := ⟨2, ![128000, 257]⟩
abbrev S2000x512 : Shape := ⟨2, ![2000, 512]⟩
abbrev S2000x257 : Shape := ⟨2, ![2000, 257]⟩
abbrev S2000x768 : Shape := ⟨2, ![2000, 768]⟩
abbrev S32x4000x257 : Shape := ⟨3, ![32, 4000, 257]⟩

abbrev nBuf : Space → Nat
  | .hbm => 20
  | .vmem => 7
  | .smem => 0
  | _ => 0

abbrev bufTy : (tb : Table) → Fin (tcTables nBuf tb) → BufTy
  | .hbm, ⟨0, _⟩ => ⟨S32x4000x512, .f32⟩
  | .hbm, ⟨1, _⟩ => ⟨S257x512, .f32⟩
  | .hbm, ⟨2, _⟩ => ⟨S257x512, .f32⟩
  | .hbm, ⟨3, _⟩ => ⟨S128000x512, .f32⟩
  | .hbm, ⟨4, _⟩ => ⟨S512x257, .f32⟩
  | .hbm, ⟨5, _⟩ => ⟨S512x257, .bf16⟩
  | .hbm, ⟨6, _⟩ => ⟨S512x257, .f32⟩
  | .hbm, ⟨7, _⟩ => ⟨S512x257, .bf16⟩
  | .hbm, ⟨8, _⟩ => ⟨S_, .bf16⟩
  | .hbm, ⟨9, _⟩ => ⟨S512x768, .bf16⟩
  | .hbm, ⟨10, _⟩ => ⟨S_, .i32⟩
  | .hbm, ⟨11, _⟩ => ⟨S1, .i32⟩
  | .hbm, ⟨12, _⟩ => ⟨S512x768, .bf16⟩
  | .hbm, ⟨13, _⟩ => ⟨S_, .i32⟩
  | .hbm, ⟨14, _⟩ => ⟨S1, .i32⟩
  | .hbm, ⟨15, _⟩ => ⟨S512x768, .bf16⟩
  | .hbm, ⟨16, _⟩ => ⟨S128000x257, .f32⟩
  | .hbm, ⟨17, _⟩ => ⟨S128000x257, .f32⟩
  | .hbm, ⟨18, _⟩ => ⟨S32x4000x257, .f32⟩
  | .hbm, ⟨19, _⟩ => ⟨S32x4000x257, .f32⟩
  | .local _ .vmem, ⟨0, _⟩ => ⟨S2000x512, .f32⟩
  | .local _ .vmem, ⟨1, _⟩ => ⟨S2000x512, .f32⟩
  | .local _ .vmem, ⟨2, _⟩ => ⟨S512x768, .bf16⟩
  | .local _ .vmem, ⟨3, _⟩ => ⟨S2000x257, .f32⟩
  | .local _ .vmem, ⟨4, _⟩ => ⟨S2000x257, .f32⟩
  | .local _ .vmem, ⟨5, _⟩ => ⟨S2000x257, .f32⟩
  | .local _ .vmem, ⟨6, _⟩ => ⟨S2000x257, .f32⟩
  | _, _ => ⟨S32x4000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x257 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x257 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x4000x512_S128000x512 : S32x4000x512.ShapeCasts S128000x512
  transposes_S257x512_S512x257_1_0 : S257x512.Transposes [1, 0] S512x257
  bitsLt_bf16_f32 : FTy.bits .bf16 < FTy.bits .f32
  bcast_S_S512x768 : S_.BroadcastsInDim S512x768 (![] : Fin 0 → Fin S512x768.rank)
  bcast_S_S1 : S_.BroadcastsInDim S1 (![] : Fin 0 → Fin S1.rank)
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x768_S512x768_0_0 : ∀ a, (![0, 0] : Fin 2 → Nat) a + S512x768.size a ≤ S512x768.size a
  h_S512x768 : 0 < S512x768.numel
  shapeCasts_S512x768_S512x768 : S512x768.ShapeCasts S512x768
  slices_S2000x768_o0_0_S2000x257 : S2000x768.Slices ![0, 0] S2000x257
  inb_S2000x257_S2000x257_0_0 : ∀ a, (![0, 0] : Fin 2 → Nat) a + S2000x257.size a ≤ S2000x257.size a
  h_S2000x257 : 0 < S2000x257.numel
  slices_S2000x768_o0_384_S2000x257 : S2000x768.Slices ![0, 384] S2000x257
  shapeCasts_S128000x257_S32x4000x257 : S128000x257.ShapeCasts S32x4000x257
  scatter_S512x768_S1_S512x257_01_n_1_0_wf : ScatterDims.WF S512x768 S1 S512x257 [0, 1] [] [1] 0
  dot_S2000x512_S512x768_S2000x768_1_0_0_1_n_n_wf : DotDims.WF S2000x512 S512x768 S2000x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S128000x512.size a
  hwx0_0 : ∀ i : grid0.Coords, EltTy.bits .f32 = 32 ∨ (Rect.block (s := S128000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x768.size a ≤ S512x768.size a
  hwx0_1 : ∀ i : grid0.Coords, EltTy.bits .bf16 = 32 ∨ (Rect.block (s := S512x768) S512x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x257.size a ≤ S128000x257.size a
  hwx0_2 : ∀ i : grid0.Coords, EltTy.bits .f32 = 32 ∨ (Rect.block (s := S128000x257) S2000x257.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x257.size a ≤ S128000x257.size a
  hwx0_3 : ∀ i : grid0.Coords, EltTy.bits .f32 = 32 ∨ (Rect.block (s := S128000x257) S2000x257.size (cc0_transform_3 i) (hinb0_3 i)).WholeWords (EltTy.packing .f32)

variable [Facts₀]

def scatter_S512x768_S1_S512x257_01_n_1_0 : ScatterDims S512x768 S1 S512x257 where
  updateWindowDims := [0, 1]
  insertedWindowDims := []
  scatterDimsToOperandDims := [1]
  indexVectorDim := 0
  wf := scatter_S512x768_S1_S512x257_01_n_1_0_wf
def dot_S2000x512_S512x768_S2000x768_1_0_0_1_n_n : DotDims S2000x512 S512x768 S2000x768 where
  lhsContracting := [1]
  rhsContracting := [0]
  lhsNonContracting := [0]
  rhsNonContracting := [1]
  lhsBatch := []
  rhsBatch := []
  wf := dot_S2000x512_S512x768_S2000x768_1_0_0_1_n_n_wf

abbrev win0_0 : Pipeline.Window sig grid0 :=
  Pipeline.Window.ofSpec (Memref.whole main_v0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S512x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10_0) S2000x257.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10_1) S2000x257.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x4000x512 : Shape := ⟨3, ![32, 4000, 512]⟩
abbrev S257x512 : Shape := ⟨2, ![257, 512]⟩
abbrev S32x4000x257 : Shape := ⟨3, ![32, 4000, 257]⟩

abbrev nBuf : Space → Nat
  | .hbm => 5
  | .vmem => 0
  | .smem => 0
  | _ => 0

abbrev bufTy : (tb : Table) → Fin (tcTables nBuf tb) → BufTy
  | .hbm, ⟨0, _⟩ => ⟨S32x4000x512, .f32⟩
  | .hbm, ⟨1, _⟩ => ⟨S257x512, .f32⟩
  | .hbm, ⟨2, _⟩ => ⟨S257x512, .f32⟩
  | .hbm, ⟨3, _⟩ => ⟨S32x4000x257, .f32⟩
  | .hbm, ⟨4, _⟩ => ⟨S32x4000x257, .f32⟩
  | _, _ => ⟨S32x4000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]

class Facts₀ : Prop where
  dot_S32x4000x512_S257x512_S32x4000x257_2_1_01_0_n_n_wf : DotDims.WF S32x4000x512 S257x512 S32x4000x257 [2] [1] [0, 1] [0] [] []

variable [Facts₀]

def dot_S32x4000x512_S257x512_S32x4000x257_2_1_01_0_n_n : DotDims S32x4000x512 S257x512 S32x4000x257 where
  lhsContracting := [2]
  rhsContracting := [1]
  lhsNonContracting := [0, 1]
  rhsNonContracting := [0]
  lhsBatch := []
  rhsBatch := []
  wf := dot_S32x4000x512_S257x512_S32x4000x257_2_1_01_0_n_n_wf

class Facts : Prop extends Facts₀ where

variable [Facts]
-- ==== Proof.BodyProduct.lean ====
/-
  The kernel body's arithmetic, read at an index, at the ideal values.

  The body multiplies its [2000, 512] input block by the whole [512, 768] packed weight into a zero accumulator and
  stores two column ranges of the product. At the ideal values the cast of the input block to bf16 is the identity
  and the product into the zero accumulator is the plain sum over the contracted axis:
      product (p, q) = Σ k < 512, block (p, k) · weight (k, q).
  The first stored value is columns [0, 257) of it, the second columns [384, 641).
-/
import proofs.«165531_j19490561590128_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- The product's dimension numbers: rows × contraction times contraction × columns, no batch axis. -/
abbrev DD : DotDims S2000x512 S512x768 S2000x768 := dot_S2000x512_S512x768_S2000x768_1_0_0_1_n_n

theorem lhs_row (i : S2000x768.Idx) (q : DD.contr.Idx) : (DD.lhsIdx i q 0).val = (i 0).val := by
  unfold DotDims.lhsIdx
  rw [dif_neg (show ¬(0 : Fin S2000x512.rank) ∈ DD.lhsBatch by decide),
    dif_pos (show (0 : Fin S2000x512.rank) ∈ DD.lhsNonContracting by decide)]
  rfl

theorem lhs_col (i : S2000x768.Idx) (q : DD.contr.Idx) : (DD.lhsIdx i q 1).val = (q ⟨0, by decide⟩).val :=
  DD.lhsIdx_val_of_single rfl i q

theorem rhs_row (i : S2000x768.Idx) (q : DD.contr.Idx) : (DD.rhsIdx i q 0).val = (q ⟨0, by decide⟩).val :=
  DD.rhsIdx_val_of_single rfl i q

theorem rhs_col (i : S2000x768.Idx) (q : DD.contr.Idx) : (DD.rhsIdx i q 1).val = (i 1).val := by
  unfold DotDims.rhsIdx
  rw [dif_neg (show ¬(1 : Fin S512x768.rank) ∈ DD.rhsBatch by decide),
    dif_pos (show (1 : Fin S512x768.rank) ∈ DD.rhsNonContracting by decide)]
  rfl

/-- The product at (p, q): the sum over the contracted axis of block (p, k) · weight (k, q). -/
theorem product_apply (x0 : Vec Ideal S2000x512 .f32) (x1 : Vec Ideal S512x768 .bf16) (p : Fin 2000) (q : Fin 768) :
    k0_pay1 (F := Ideal) x0 x1 (ix2 p q) = ∑ k : Fin 512, x0 (ix2 p k) * x1 (ix2 k q) := by
  unfold k0_pay1
  simp only [matmul]
  rw [shapeCast_self, shapeCast_self, Ideal.matmul_constant_zero_apply,
    ← Equiv.sum_comp (contrEquiv1 DD 512 rfl rfl).symm]
  refine Finset.sum_congr rfl fun k _ => ?_
  have hk := contrEquiv1_symm_val DD 512 rfl rfl k
  have el : DD.lhsIdx (ix2 p q) ((contrEquiv1 DD 512 rfl rfl).symm k) = ix2 p k := funext fun a => Fin.ext (by
    match a with
    | ⟨0, _⟩ => exact lhs_row _ _
    | ⟨1, _⟩ => exact (lhs_col _ _).trans hk)
  have er : DD.rhsIdx (ix2 p q) ((contrEquiv1 DD 512 rfl rfl).symm k) = ix2 k q := funext fun a => Fin.ext (by
    match a with
    | ⟨0, _⟩ => exact (rhs_row _ _).trans hk
    | ⟨1, _⟩ => exact rhs_col _ _)
  rw [el, er]
  rfl

/-- The first stored value at (p, r): the product's column r. -/
theorem first_apply (x0 : Vec Ideal S2000x512 .f32) (x1 : Vec Ideal S512x768 .bf16) (p : Fin 2000) (r : Fin 257) :
    k0_pay2 (F := Ideal) x0 x1 (ix2 p r)
      = ∑ k : Fin 512, x0 (ix2 p k) * x1 (ix2 k (⟨r.val, by have := r.isLt; omega⟩ : Fin 768)) := by
  unfold k0_pay2
  refine (extractStridedSlice_apply _ _ _ (ix2 p r) (ix2 p (⟨r.val, by have := r.isLt; omega⟩ : Fin 768)) ?_).trans
    (product_apply x0 x1 p _)
  intro a
  match a with
  | ⟨0, _⟩ => show p.val = 0 + p.val; omega
  | ⟨1, _⟩ => show r.val = 0 + r.val; omega

/-- The second stored value at (p, r): the product's column 384 + r. -/
theorem second_apply (x0 : Vec Ideal S2000x512 .f32) (x1 : Vec Ideal S512x768 .bf16) (p : Fin 2000) (r : Fin 257) :
    k0_pay3 (F := Ideal) x0 x1 (ix2 p r)
      = ∑ k : Fin 512, x0 (ix2 p k) * x1 (ix2 k (⟨384 + r.val, by have := r.isLt; omega⟩ : Fin 768)) := by
  unfold k0_pay3
  refine (extractStridedSlice_apply _ _ _ (ix2 p r) (ix2 p (⟨384 + r.val, by have := r.isLt; omega⟩ : Fin 768)) ?_).trans
    (product_apply x0 x1 p _)
  intro a
  match a with
  | ⟨0, _⟩ => show p.val = 0 + p.val; omega
  | ⟨1, _⟩ => show 384 + r.val = 384 + r.val; rfl

end Cert.KernelIdeal.Body

end
-- ==== Proof.OutputRows.lean ====
/-
  The two output arrays after the region, each as ONE function of the region's two input arrays.

  The grid has 64 points; point t takes rows [2000·t, 2000·t + 2000) of the rows array and the whole weight, and
  writes rows [2000·t, 2000·t + 2000) of each output. So what point t writes back is the block of rows 2000·t … of
      out (i, r) = Σ k < 512, rows (i, k) · weight (k, col r),
  with col r = r for the first output and col r = 384 + r for the second; the 64 blocks tile the 128000 rows, the point
  that writes row i being i / 2000, so each output array ends holding that function.
-/
import proofs.«165531_j19490561590128_2_alg».proof.Proof.Gen.KernelIdeal.Frame
import proofs.«165531_j19490561590128_2_alg».proof.Proof.BodyProduct
import Idealize.ShloMosaic.Lib.Pipeline.Value
import Idealize.ShloMosaic.Lib.ValueIdx

set_option maxRecDepth 16384

noncomputable section

namespace Cert.KernelIdeal.Rows

open Cert.KernelIdeal Cert.KernelIdeal.Gen Idealize.ShloMosaic Idealize.ShloMosaic.TcCoe Idealize.SL.Sem
open Idealize.ShloMosaic.ValueIdx
open Idealize.ShloMosaic.Pipeline (Dat)

/-! ## The whole-array function -/

/-- The first output reads the weight's column r. -/
def colFirst (r : Fin 257) : Fin 768 := ⟨r.val, by have := r.isLt; omega⟩
/-- The second output reads the weight's column 384 + r. -/
def colSecond (r : Fin 257) : Fin 768 := ⟨384 + r.val, by have := r.isLt; omega⟩

/-- Row i of the rows array against column `col r` of the weight. -/
def proj (col : Fin 257 → Fin 768) (X : S128000x512.Idx → EReal) (W : S512x768.Idx → EReal) : S128000x257.Idx → EReal :=
  fun i => ∑ k : Fin 512, X (ix2 (⟨(i 0).val, (i 0).isLt⟩ : Fin 128000) k)
    * W (ix2 k (col (⟨(i 1).val, (i 1).isLt⟩ : Fin 257)))

/-- ONE POINT, over variables: if the input block holds rows 2000·b … of `X`, the weight block is `W`, and the stored
    value at (p, r) is the sum of block (p, k) · weight (k, col r), then the stored value at a block index is `proj` at
    the array index 2000·b rows further down. -/
theorem block_eq (col : Fin 257 → Fin 768)
    (pay : Vec Ideal S2000x512 .f32 → Vec Ideal S512x768 .bf16 → FVec Ideal S2000x257 .f32)
    (hpay : ∀ x0 x1 (p : Fin 2000) (r : Fin 257),
      pay x0 x1 (ix2 p r) = ∑ k : Fin 512, x0 (ix2 p k) * x1 (ix2 k (col r)))
    (X : S128000x512.Idx → EReal) (W : S512x768.Idx → EReal)
    (x0 : Vec Ideal S2000x512 .f32) (x1 : Vec Ideal S512x768 .bf16) (b : Nat)
    (h0 : ∀ (p : Fin 2000) (k : Fin 512) (hb : b * 2000 + p.val < 128000),
      x0 (ix2 p k) = X (ix2 (⟨b * 2000 + p.val, hb⟩ : Fin 128000) k))
    (h1 : ∀ y, x1 y = W y)
    (y : S2000x257.Idx) (i : S128000x257.Idx) (hi0 : (i 0).val = b * 2000 + (y 0).val) (hi1 : (i 1).val = (y 1).val) :
    pay x0 x1 y = proj col X W i := by
  obtain ⟨p, r, rfl⟩ : ∃ (p : Fin 2000) (r : Fin 257), y = ix2 p r := ⟨y 0, y 1, eq_ix2 y⟩
  have hi0' : (i 0).val = b * 2000 + p.val := hi0
  have hi1' : (i 1).val = r.val := hi1
  have hb : b * 2000 + p.val < 128000 := by have := (i 0).isLt; have h : (i 0).val < 128000 := this; omega
  rw [hpay]
  unfold proj
  refine Finset.sum_congr rfl fun k _ => ?_
  rw [h0 p k hb, h1]
  have e0 : (⟨b * 2000 + p.val, hb⟩ : Fin 128000) = ⟨(i 0).val, (i 0).isLt⟩ := Fin.ext hi0'.symm
  have e1 : r = (⟨(i 1).val, (i 1).isLt⟩ : Fin 257) := Fin.ext hi1'.symm
  rw [e0, ← e1]

/-! ## The printed index maps, decided over the 64 points -/

theorem hz : (![0, 0] : Fin 2 → Nat) = fun _ => 0 := funext fun a => by fin_cases a <;> rfl

/-- Windows 0, 2 and 3 are at block row t, block column 0; window 1 is the one whole block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (m : (ℓ : Loc nD τ sig) → Buf (Elt Ideal) ℓ)

/-- The input block at point t holds rows 2000·t … of the rows array. -/
theorem rows_block (c : Dev nD) (t : Fin cfg0.N) (p : Fin 2000) (k : Fin 512) (hb : t.val * 2000 + p.val < 128000) :
    iblk m c 0 t (ix2 p k) = (V m c main_v0 : S128000x512.Idx → EReal) (ix2 (⟨t.val * 2000 + p.val, hb⟩ : Fin 128000) k) := by
  obtain ⟨e0, e1, -, -, -, -, -, -⟩ := idx_facts t
  show (V m c main_v0 : S128000x512.Idx → EReal) (((cfg0.win 0).blk t).view.emb (ix2 p k)) = _
  refine congrArg _ (funext fun a => Fin.ext ?_)
  match a with
  | ⟨0, _⟩ => show win0_0.index t (0 : Fin 2) * 2000 + 1 * p.val = t.val * 2000 + p.val; omega
  | ⟨1, _⟩ => show win0_0.index t (1 : Fin 2) * 512 + 1 * k.val = k.val; omega

/-- The weight block at every point is the whole weight array. -/
theorem weight_block (c : Dev nD) (t : Fin cfg0.N) (y : S512x768.Idx) :
    iblk m c 1 t y = (V m c main_v9 : S512x768.Idx → EReal) y := by
  obtain ⟨-, -, e2, e3, -, -, -, -⟩ := idx_facts t
  show (V m c main_v9 : S512x768.Idx → EReal) (((cfg0.win 1).blk t).view.emb y) = _
  refine congrArg _ (funext fun a => Fin.ext ?_)
  match a with
  | ⟨0, _⟩ => show win0_1.index t (0 : Fin 2) * 512 + 1 * (y 0).val = (y 0).val; omega
  | ⟨1, _⟩ => show win0_1.index t (1 : Fin 2) * 768 + 1 * (y 1).val = (y 1).val; omega

/-! ## The first output (window 2) -/

/-- What point t writes back to the first output is block t of `proj colFirst` of the two input arrays. -/
theorem flushed_first (c : Dev nD) (t : Fin cfg0.N) :
    (dats m 0 c).flushed 2 t
      = ((cfg0.win 2).blk t).view.read (Elt Ideal) (proj colFirst (V m c main_v0) (V m c main_v9)) := by
  show (cfg0.win 2).cut (grid0.coords t) ((dats m 0 c).after 2 t) = _
  rw [after0_2]
  unfold out0_2
  rw [View.canon_unit_zero hz]
  simp only [View.ld_unit_zero (S := S2000x512) hz, View.ld_unit_zero (S := S512x768) hz]
  obtain ⟨-, -, -, -, e4, e5, -, -⟩ := idx_facts t
  funext j
  show k0_pay2 (F := Ideal) (iblk m c 0 t) (iblk m c 1 t) j
    = proj colFirst (V m c main_v0) (V m c main_v9) (((cfg0.win 2).blk t).view.emb j)
  refine block_eq colFirst k0_pay2 Body.first_apply (V m c main_v0) (V m c main_v9) (iblk m c 0 t) (iblk m c 1 t) t.val
    (fun p k hb => rows_block m c t p k hb) (fun y => weight_block m c t y) j (((cfg0.win 2).blk t).view.emb j) ?_ ?_
  · show win0_2.index t (0 : Fin 2) * 2000 + 1 * (j 0).val = t.val * 2000 + (j 0).val; omega
  · show win0_2.index t (1 : Fin 2) * 257 + 1 * (j 1).val = (j 1).val; omega

/-- An index of the first output is in point t's block iff each coordinate is in the block's range. -/
theorem mem_blk_first (t : Fin cfg0.N) (i : S128000x257.Idx) :
    i ∈ ((cfg0.win 2).blk t).view.set ↔ ∀ a : Fin 2, win0_2.index t a * S2000x257.size a ≤ (i a).val
      ∧ (i a).val < win0_2.index t a * S2000x257.size a + S2000x257.size a := by
  show i ∈ ((View.whole main_v10_0).slice (win0_2.rect t)).set ↔ _
  rw [View.set_slice_whole, Rect.mem_set_unit]
  exact Iff.rfl

/-- Every row of the first output is written by the point its row number divided by 2000 names. -/
theorem cover_first (i : S128000x257.Idx) :
    ∃ t : Fin cfg0.N, (cfg0.win 2).flush t = true ∧ i ∈ ((cfg0.win 2).blk t).view.set := by
  have hi0 : (i 0).val < 128000 := (i 0).isLt
  have hi1 : (i 1).val < 257 := (i 1).isLt
  have hN : (i 0).val / 2000 < cfg0.N := by show _ < grid0.N; rw [N_0]; omega
  refine ⟨⟨(i 0).val / 2000, hN⟩, flush0_2 _, ?_⟩
  obtain ⟨-, -, -, -, e4, e5, -, -⟩ := idx_facts ⟨(i 0).val / 2000, hN⟩
  have e4' : win0_2.index ⟨(i 0).val / 2000, hN⟩ (0 : Fin 2) = (i 0).val / 2000 := e4
  rw [mem_blk_first]
  intro a
  match a with
  | ⟨0, _⟩ =>
    show win0_2.index ⟨(i 0).val / 2000, hN⟩ (0 : Fin 2) * 2000 ≤ (i 0).val
      ∧ (i 0).val < win0_2.index ⟨(i 0).val / 2000, hN⟩ (0 : Fin 2) * 2000 + 2000
    omega
  | ⟨1, _⟩ =>
    show win0_2.index ⟨(i 0).val / 2000, hN⟩ (1 : Fin 2) * 257 ≤ (i 1).val
      ∧ (i 1).val < win0_2.index ⟨(i 0).val / 2000, hN⟩ (1 : Fin 2) * 257 + 257
    omega

/-- THE FIRST OUTPUT ARRAY after the region. -/
theorem final_first (c : Dev nD) :
    (dats m 0 c).arrAt 2 cfg0.N = proj colFirst (V m c main_v0) (V m c main_v9) :=
  (dats m 0 c).arrAt_eq_of_cover 2 _ (fun t _ => flushed_first m c t) cover_first

/-! ## The second output (window 3) -/

/-- What point t writes back to the second output is block t of `proj colSecond` of the two input arrays. -/
theorem flushed_second (c : Dev nD) (t : Fin cfg0.N) :
    (dats m 0 c).flushed 3 t
      = ((cfg0.win 3).blk t).view.read (Elt Ideal) (proj colSecond (V m c main_v0) (V m c main_v9)) := by
  show (cfg0.win 3).cut (grid0.coords t) ((dats m 0 c).after 3 t) = _
  rw [after0_3]
  unfold out0_3
  rw [View.canon_unit_zero hz]
  simp only [View.ld_unit_zero (S := S2000x512) hz, View.ld_unit_zero (S := S512x768) hz]
  obtain ⟨-, -, -, -, -, -, e6, e7⟩ := idx_facts t
  funext j
  show k0_pay3 (F := Ideal) (iblk m c 0 t) (iblk m c 1 t) j
    = proj colSecond (V m c main_v0) (V m c main_v9) (((cfg0.win 3).blk t).view.emb j)
  refine block_eq colSecond k0_pay3 Body.second_apply (V m c main_v0) (V m c main_v9) (iblk m c 0 t) (iblk m c 1 t) t.val
    (fun p k hb => rows_block m c t p k hb) (fun y => weight_block m c t y) j (((cfg0.win 3).blk t).view.emb j) ?_ ?_
  · show win0_3.index t (0 : Fin 2) * 2000 + 1 * (j 0).val = t.val * 2000 + (j 0).val; omega
  · show win0_3.index t (1 : Fin 2) * 257 + 1 * (j 1).val = (j 1).val; omega

/-- An index of the second output is in point t's block iff each coordinate is in the block's range. -/
theorem mem_blk_second (t : Fin cfg0.N) (i : S128000x257.Idx) :
    i ∈ ((cfg0.win 3).blk t).view.set ↔ ∀ a : Fin 2, win0_3.index t a * S2000x257.size a ≤ (i a).val
      ∧ (i a).val < win0_3.index t a * S2000x257.size a + S2000x257.size a := by
  show i ∈ ((View.whole main_v10_1).slice (win0_3.rect t)).set ↔ _
  rw [View.set_slice_whole, Rect.mem_set_unit]
  exact Iff.rfl

/-- Every row of the second output is written by the point its row number divided by 2000 names. -/
theorem cover_second (i : S128000x257.Idx) :
    ∃ t : Fin cfg0.N, (cfg0.win 3).flush t = true ∧ i ∈ ((cfg0.win 3).blk t).view.set := by
  have hi0 : (i 0).val < 128000 := (i 0).isLt
  have hi1 : (i 1).val < 257 := (i 1).isLt
  have hN : (i 0).val / 2000 < cfg0.N := by show _ < grid0.N; rw [N_0]; omega
  refine ⟨⟨(i 0).val / 2000, hN⟩, flush0_3 _, ?_⟩
  obtain ⟨-, -, -, -, -, -, e6, e7⟩ := idx_facts ⟨(i 0).val / 2000, hN⟩
  have e6' : win0_3.index ⟨(i 0).val / 2000, hN⟩ (0 : Fin 2) = (i 0).val / 2000 := e6
  rw [mem_blk_second]
  intro a
  match a with
  | ⟨0, _⟩ =>
    show win0_3.index ⟨(i 0).val / 2000, hN⟩ (0 : Fin 2) * 2000 ≤ (i 0).val
      ∧ (i 0).val < win0_3.index ⟨(i 0).val / 2000, hN⟩ (0 : Fin 2) * 2000 + 2000
    omega
  | ⟨1, _⟩ =>
    show win0_3.index ⟨(i 0).val / 2000, hN⟩ (1 : Fin 2) * 257 ≤ (i 1).val
      ∧ (i 1).val < win0_3.index ⟨(i 0).val / 2000, hN⟩ (1 : Fin 2) * 257 + 257
    omega

/-- THE SECOND OUTPUT ARRAY after the region. -/
theorem final_second (c : Dev nD) :
    (dats m 0 c).arrAt 3 cfg0.N = proj colSecond (V m c main_v0) (V m c main_v9) :=
  (dats m 0 c).arrAt_eq_of_cover 3 _ (fun t _ => flushed_second m c t) cover_second

end Cert.KernelIdeal.Rows

end
-- ==== Proof.LibScatterSet.lean ====
/-
  A host scatter whose body returns the update, read at one index.

  The scatter is a left fold over the update indices in row-major order; each step replaces the element its update
  lands on and leaves every other element alone. So at a result index `i`:
  * if no update lands on `i`, the fold never touches it and the operand's element stays;
  * if exactly one update index `j` lands on `i`, then after the step of `j` the element is the update's at `j`,
    and no later step touches it again.
  Both facts are proved for any list of update positions without repeats and then read at the scatter's own list.
-/
import Idealize.ShloMosaic.PureOps.ShapeOps
import Idealize.ShloMosaic.PureOps.Dims

namespace Idealize.ShloMosaic.ScatterSet

open Idealize.ShloMosaic

variable {α : Type} {s si u : Shape} {w : Nat}

/-- An index on which none of the listed updates lands keeps its element through the fold. -/
theorem foldl_apply_of_miss (d : ScatterDims s si u) (f : α → α → α) (idx : IVec si w) (upd : u.Idx → α) (i : s.Idx) :
    ∀ (l : List (Fin u.numel)) (r : s.Idx → α), (∀ n ∈ l, d.resultIdx? (u.rowMajor.symm n) idx ≠ some i) →
      (l.foldl (fun r n =>
          match d.resultIdx? (u.rowMajor.symm n) idx with
          | some i₀ => fun i' => if i' = i₀ then f (r i₀) (upd (u.rowMajor.symm n)) else r i'
          | none => r) r) i = r i
  | [], _, _ => rfl
  | a :: t, r, h => by
    rw [List.foldl_cons, foldl_apply_of_miss d f idx upd i t _ (fun n hn => h n (List.mem_cons_of_mem _ hn))]
    have ha := h a List.mem_cons_self
    cases hc : d.resultIdx? (u.rowMajor.symm a) idx with
    | none => rfl
    | some i₀ =>
      show (if i = i₀ then _ else r i) = r i
      rw [if_neg]
      intro e
      exact ha (hc.trans (congrArg some e.symm))

/-- An index on which exactly one of the listed updates lands, the list without repeats, ends at that update's element
    when the body returns the update. -/
theorem foldl_apply_of_hit (d : ScatterDims s si u) (f : α → α → α) (hf : ∀ a b, f a b = b) (idx : IVec si w)
    (upd : u.Idx → α) (i : s.Idx) (n₀ : Fin u.numel) (h₀ : d.resultIdx? (u.rowMajor.symm n₀) idx = some i) :
    ∀ (l : List (Fin u.numel)) (r : s.Idx → α), l.Nodup → n₀ ∈ l →
      (∀ n ∈ l, d.resultIdx? (u.rowMajor.symm n) idx = some i → n = n₀) →
      (l.foldl (fun r n =>
          match d.resultIdx? (u.rowMajor.symm n) idx with
          | some i₀ => fun i' => if i' = i₀ then f (r i₀) (upd (u.rowMajor.symm n)) else r i'
          | none => r) r) i = upd (u.rowMajor.symm n₀)
  | [], _, _, hm, _ => absurd hm List.not_mem_nil
  | a :: t, r, hnd, hm, hu => by
    rw [List.foldl_cons]
    by_cases ha : a = n₀
    · subst ha
      have hnot : a ∉ t := (List.nodup_cons.mp hnd).1
      rw [foldl_apply_of_miss d f idx upd i t _ (fun n hn e =>
        hnot ((hu n (List.mem_cons_of_mem _ hn) e) ▸ hn))]
      simp only [h₀]
      rw [if_pos True.intro, hf]
    · have hm' : n₀ ∈ t := by
        rcases List.mem_cons.mp hm with e | e
        · exact absurd e.symm ha
        · exact e
      exact foldl_apply_of_hit d f hf idx upd i n₀ h₀ t _ (List.nodup_cons.mp hnd).2 hm'
        (fun n hn => hu n (List.mem_cons_of_mem _ hn))

/-- THE SCATTER AT AN INDEX NO UPDATE LANDS ON: the operand's element. -/
theorem scatter_apply_of_miss (d : ScatterDims s si u) (f : α → α → α) (x : s.Idx → α) (idx : IVec si w) (upd : u.Idx → α)
    (i : s.Idx) (hmiss : ∀ j : u.Idx, d.resultIdx? j idx ≠ some i) : Host.scatter d f x idx upd i = x i := by
  unfold Host.scatter
  exact foldl_apply_of_miss d f idx upd i _ x (fun n _ => hmiss _)

/-- THE SCATTER AT AN INDEX EXACTLY ONE UPDATE LANDS ON, the body returning the update: that update's element. -/
theorem scatter_apply_of_hit (d : ScatterDims s si u) (f : α → α → α) (hf : ∀ a b, f a b = b) (x : s.Idx → α)
    (idx : IVec si w) (upd : u.Idx → α) (i : s.Idx) (j : u.Idx) (hj : d.resultIdx? j idx = some i)
    (huniq : ∀ j' : u.Idx, d.resultIdx? j' idx = some i → j' = j) : Host.scatter d f x idx upd i = upd j := by
  unfold Host.scatter
  have e : u.rowMajor.symm (u.rowMajor j) = j := u.rowMajor.symm_apply_apply j
  rw [← e]
  refine foldl_apply_of_hit d f hf idx upd i (u.rowMajor j) (by rw [e]; exact hj) _ x (List.nodup_finRange _)
    (List.mem_finRange _) (fun n _ hn => ?_)
  have := huniq _ hn
  rw [← this, Equiv.apply_symm_apply]

end Idealize.ShloMosaic.ScatterSet
-- ==== Proof.WeightLanding.lean ====
/-
  Where the packed weight's two scatters land.

  Each scatter writes a whole [512, 257] update into the [512, 768] weight at ONE start, which names the column axis
  only: update element (n, r) lands at row n, column start + r. With start 0 or 384 and r < 257 that column is
  below 768, so no update is dropped, and distinct update elements land on distinct weight elements.
-/
import proofs.«165531_j19490561590128_2_alg».proof.Proof.Gen.KernelIdeal
import proofs.«165531_j19490561590128_2_alg».proof.Proof.LibScatterSet
import Idealize.ShloMosaic.Lib.ValueIdx

noncomputable section

namespace Cert.KernelIdeal.Packed

open Cert.KernelIdeal Cert.KernelIdeal.Gen Idealize.ShloMosaic Idealize.ShloMosaic.ValueIdx

/-- The scatter's dimension numbers: update window axes [0, 1], no inserted axis, the index vector naming axis 1. -/
abbrev SD : ScatterDims S512x768 S1 S512x257 := scatter_S512x768_S1_S512x257_01_n_1_0

/-- The row axis is not named by the index vector: the window starts at row 0. -/
theorem start_row (j : S512x257.Idx) (idx : IVec S1 32) : SD.start j idx 0 = 0 := by
  unfold ScatterDims.start
  rw [dif_neg (show ¬(0 : Fin S512x768.rank) ∈ SD.scatterDimsToOperandDims by decide)]

/-- The column axis starts at the index vector's one word, read signed. -/
theorem start_col (j : S512x257.Idx) (idx : IVec S1 32) (cw : BitVec 32) (hidx : ∀ k, idx k = cw) :
    SD.start j idx 1 = cw.toInt := by
  unfold ScatterDims.start
  rw [dif_pos (show (1 : Fin S512x768.rank) ∈ SD.scatterDimsToOperandDims by decide), hidx]

/-- The window coordinate on the row axis is the update's row. -/
theorem window_row (j : S512x257.Idx) : SD.window j 0 = (j 0).val := by
  unfold ScatterDims.window
  rw [dif_pos (show (0 : Fin S512x768.rank) ∈ SD.sKept by decide)]
  rfl

/-- The window coordinate on the column axis is the update's column. -/
theorem window_col (j : S512x257.Idx) : SD.window j 1 = (j 1).val := by
  unfold ScatterDims.window
  rw [dif_pos (show (1 : Fin S512x768.rank) ∈ SD.sKept by decide)]
  rfl

/-- Update element (n, r) lands at (n, c + r), for a start word denoting a column c that keeps the window inside. -/
theorem lands (c : Nat) (hc : c + 257 ≤ 768) (cw : BitVec 32) (hcw : cw.toInt = (c : Int)) (idx : IVec S1 32)
    (hidx : ∀ k, idx k = cw) (j : S512x257.Idx) :
    SD.resultIdx? j idx = some (ix2 (j 0) (⟨c + (j 1).val, by have h : (j 1).val < 257 := (j 1).isLt; omega⟩ : Fin 768)) := by
  have h0 : (j 0).val < 512 := (j 0).isLt
  have h1 : (j 1).val < 257 := (j 1).isLt
  have hall : ∀ a, 0 ≤ SD.start j idx a + SD.window j a ∧ SD.start j idx a + SD.window j a < S512x768.size a := by
    intro a
    match a with
    | ⟨0, _⟩ =>
      show 0 ≤ SD.start j idx 0 + SD.window j 0 ∧ SD.start j idx 0 + SD.window j 0 < (512 : Nat)
      rw [start_row, window_row]; omega
    | ⟨1, _⟩ =>
      show 0 ≤ SD.start j idx 1 + SD.window j 1 ∧ SD.start j idx 1 + SD.window j 1 < (768 : Nat)
      rw [start_col j idx cw hidx, window_col, hcw]; omega
  unfold ScatterDims.resultIdx?
  rw [dif_pos hall]
  refine congrArg some (funext fun a => Fin.ext ?_)
  match a with
  | ⟨0, _⟩ =>
    show (SD.start j idx 0 + SD.window j 0).toNat = (j 0).val
    rw [start_row, window_row]; omega
  | ⟨1, _⟩ =>
    show (SD.start j idx 1 + SD.window j 1).toNat = c + (j 1).val
    rw [start_col j idx cw hidx, window_col, hcw]; omega

/-- Two update elements that land on one weight element are one update element. -/
theorem lands_inj (c : Nat) (hc : c + 257 ≤ 768) (cw : BitVec 32) (hcw : cw.toInt = (c : Int)) (idx : IVec S1 32)
    (hidx : ∀ k, idx k = cw) (j j' : S512x257.Idx) (i : S512x768.Idx)
    (hj : SD.resultIdx? j idx = some i) (hj' : SD.resultIdx? j' idx = some i) : j' = j := by
  rw [lands c hc cw hcw idx hidx j] at hj
  rw [lands c hc cw hcw idx hidx j'] at hj'
  have e := Option.some.inj (hj'.trans hj.symm)
  have e0 : ((j' 0).val : Nat) = (j 0).val := congrArg (fun z : S512x768.Idx => (z 0).val) e
  have e1 : c + (j' 1).val = c + (j 1).val := congrArg (fun z : S512x768.Idx => (z 1).val) e
  funext a
  apply Fin.ext
  match a with
  | ⟨0, _⟩ => exact e0
  | ⟨1, _⟩ => show (j' 1).val = (j 1).val; omega

end Cert.KernelIdeal.Packed

end
-- ==== Proof.RegionEntry.lean ====
/-
  What the region finds in its two input arrays, read at an index, at the ideal values.

  * The rows array is the [32, 4000, 512] input flattened to [128000, 512]: row b·4000 + t is the input's row (b, t).
  * The packed weight is a zero [512, 768] array into which the transposed first matrix is written at column 0 and then
    the transposed second matrix at column 384 (the casts to bf16 are the identity at the ideal values). A column
    r < 257 is reached by the first write only (the second starts at 384 > 256), so it holds the first matrix's entry
    (r, n); column 384 + r is reached by the second write, after the first, so it holds the second matrix's (r, n).
-/
import proofs.«165531_j19490561590128_2_alg».proof.Proof.Gen.KernelIdeal.Frame
import proofs.«165531_j19490561590128_2_alg».proof.Proof.WeightLanding
import Idealize.ShloMosaic.Lib.StableHlo.Run
import Idealize.ShloMosaic.Lib.Pipeline.Value
import Idealize.ShloMosaic.Lib.ValueIdx

noncomputable section

namespace Cert.KernelIdeal.Entry

open Cert.KernelIdeal Cert.KernelIdeal.Gen Cert.KernelIdeal.Packed Idealize.ShloMosaic Idealize.ShloMosaic.TcCoe
open Idealize.SL.Sem Idealize.ShloMosaic.StableHlo Idealize.ShloMosaic.ValueIdx Idealize.ShloMosaic.ScatterSet

/-! ## The packed weight as a function of the two matrices -/

/-- A [257, 512] matrix transposed and cast: the update one scatter writes. -/
def turned (M : S257x512.Idx → EReal) : S512x257.Idx → EReal :=
  truncf (F := Ideal) .bf16 (transpose S512x257 [1, 0] M transposes_S257x512_S512x257_1_0) bitsLt_bf16_f32

/-- The index vector of a scatter: one word. -/
def startAt (cw : BitVec 32) : IVec S1 32 := broadcastInDim S1 ![] bcast_S_S1 (constantI S_ 32 cw)

theorem startAt_apply (cw : BitVec 32) (k : S1.Idx) : startAt cw k = cw := rfl

/-- The packed weight: zeros, then the first matrix turned at column 0, then the second at column 384. -/
def packed (M1 M2 : S257x512.Idx → EReal) : S512x768.Idx → EReal :=
  Host.scatter SD (fun _ b => b)
    (Host.scatter SD (fun _ b => b)
      (broadcastInDim S512x768 ![] bcast_S_S512x768 (constant (F := Ideal) S_ .bf16 0x0000#16))
      (startAt 0#32) (turned M1))
    (startAt 384#32) (turned M2)

/-- The turned matrix at (n, r) is the matrix at (r, n). -/
theorem turned_apply (M : S257x512.Idx → EReal) (n : Fin 512) (r : Fin 257) : turned M (ix2 n r) = M (ix2 r n) := by
  unfold turned
  show transpose S512x257 [1, 0] M transposes_S257x512_S512x257_1_0 (ix2 n r) = M (ix2 r n)
  exact transpose_apply [1, 0] M _ (ix2 n r) (ix2 r n) (fun b => by
    match b with
    | ⟨0, _⟩ => rfl
    | ⟨1, _⟩ => rfl)

theorem toInt_zero : (0#32 : BitVec 32).toInt = ((0 : Nat) : Int) := by decide
theorem toInt_384 : (384#32 : BitVec 32).toInt = ((384 : Nat) : Int) := by decide

/-- Column r < 257 of the packed weight holds the first matrix's entry (r, n). -/
theorem packed_first (M1 M2 : S257x512.Idx → EReal) (n : Fin 512) (r : Fin 257) :
    packed M1 M2 (ix2 n (⟨r.val, by have := r.isLt; omega⟩ : Fin 768)) = M1 (ix2 r n) := by
  have hr : r.val < 257 := r.isLt
  have hland : SD.resultIdx? (ix2 n r) (startAt 0#32)
      = some (ix2 n (⟨r.val, by omega⟩ : Fin 768)) :=
    (lands 0 (by omega) 0#32 toInt_zero (startAt 0#32) (startAt_apply _) (ix2 n r)).trans
      (congrArg some (funext fun a => Fin.ext (by
        match a with
        | ⟨0, _⟩ => rfl
        | ⟨1, _⟩ => exact Nat.zero_add _)))
  unfold packed
  refine (scatter_apply_of_miss SD _ _ (startAt 384#32) (turned M2) (ix2 n (⟨r.val, by omega⟩ : Fin 768))
    (fun j hj => ?_)).trans ?_
  · rw [lands 384 (by omega) 384#32 toInt_384 (startAt 384#32) (startAt_apply _) j] at hj
    have e : 384 + (j 1).val = r.val := congrArg (fun z : S512x768.Idx => (z 1).val) (Option.some.inj hj)
    omega
  · exact (scatter_apply_of_hit SD _ (fun _ _ => rfl) _ (startAt 0#32) (turned M1)
      (ix2 n (⟨r.val, by omega⟩ : Fin 768)) (ix2 n r) hland
      (fun j' hj' => lands_inj 0 (by omega) 0#32 toInt_zero (startAt 0#32) (startAt_apply _) (ix2 n r) j' _ hland hj')).trans
      (turned_apply M1 n r)

/-- Column 384 + r of the packed weight holds the second matrix's entry (r, n). -/
theorem packed_second (M1 M2 : S257x512.Idx → EReal) (n : Fin 512) (r : Fin 257) :
    packed M1 M2 (ix2 n (⟨384 + r.val, by have := r.isLt; omega⟩ : Fin 768)) = M2 (ix2 r n) := by
  have hr : r.val < 257 := r.isLt
  have hland : SD.resultIdx? (ix2 n r) (startAt 384#32)
      = some (ix2 n (⟨384 + r.val, by omega⟩ : Fin 768)) :=
    lands 384 (by omega) 384#32 toInt_384 (startAt 384#32) (startAt_apply _) (ix2 n r)
  unfold packed
  exact (scatter_apply_of_hit SD _ (fun _ _ => rfl) _ (startAt 384#32) (turned M2)
    (ix2 n (⟨384 + r.val, by omega⟩ : Fin 768)) (ix2 n r) hland
    (fun j' hj' => lands_inj 384 (by omega) 384#32 toInt_384 (startAt 384#32) (startAt_apply _) (ix2 n r) j' _ hland hj')).trans
    (turned_apply M2 n r)

/-! ## The two arrays as the region finds them -/

variable (m : (ℓ : Loc nD τ sig) → Buf (Elt Ideal) ℓ)

/-- The weight array at region entry is the packed weight of the two matrix arguments. -/
theorem weight_eq (c : Dev nD) :
    (V m c main_v9 : S512x768.Idx → EReal)
      = packed (m ((c : Thread nD τ).loc main_arg1)) (m ((c : Thread nD τ).loc main_arg2)) := by
  show StableHlo.after hostOps0 (fun b => m (c, b)) (Proc.devRef .tc main_v9) = _
  after_results
  rfl

/-- The rows array at region entry is the first argument flattened. -/
theorem rows_eq (c : Dev nD) :
    (V m c main_v0 : S128000x512.Idx → EReal)
      = shapeCast S128000x512 (m ((c : Thread nD τ).loc main_arg0)) shapeCasts_S32x4000x512_S128000x512 := by
  show StableHlo.after hostOps0 (fun b => m (c, b)) (Proc.devRef .tc main_v0) = _
  after_results
  rfl

/-- Row b·4000 + t of the rows array is row (b, t) of the first argument. -/
theorem rows_apply (c : Dev nD) (b : Fin 32) (t : Fin 4000) (k : Fin 512) :
    (V m c main_v0 : S128000x512.Idx → EReal)
        (ix2 (⟨b.val * 4000 + t.val, by have := b.isLt; have := t.isLt; omega⟩ : Fin 128000) k)
      = (m ((c : Thread nD τ).loc main_arg0) : S32x4000x512.Idx → EReal) (ix3 b t k) := by
  rw [rows_eq]
  refine shapeCast_apply _ _ _ (ix3 b t k) ?_
  rw [Shape.rowMajor_val_three, Shape.rowMajor_val_two]
  rfl

end Cert.KernelIdeal.Entry

end
-- ==== Proof.Spec.lean ====
/-
  The specification: a batch of rows projected on the rows of a matrix,
      project x M (b, t, r) = Σ n < 512, x (b, t, n) · M (r, n),
  on the extended reals. Both results of both programs are this function: the first of the input and the first
  matrix, the second of the input and the second matrix. The sum is over the same index set, in the same factor
  order, on both sides, so no law of the extended reals beyond the sum's own congruence is used and the inputs'
  finiteness is never needed.
-/
import Idealize.ShloMosaic.PureOps.Ideal
import Idealize.ShloMosaic.Lib.ValueIdx

noncomputable section

namespace Cert.Spec

open Idealize.ShloMosaic Idealize.ShloMosaic.ValueIdx

/-- Row (b, t) of `x` against row r of `M`. -/
def project (x : (⟨3, ![32, 4000, 512]⟩ : Shape).Idx → EReal) (M : (⟨2, ![257, 512]⟩ : Shape).Idx → EReal) :
    (⟨3, ![32, 4000, 257]⟩ : Shape).Idx → EReal :=
  fun i => ∑ k : Fin 512,
    x (ix3 (⟨(i 0).val, (i 0).isLt⟩ : Fin 32) (⟨(i 1).val, (i 1).isLt⟩ : Fin 4000) k)
      * M (ix2 (⟨(i 2).val, (i 2).isLt⟩ : Fin 257) k)

end Cert.Spec

end
-- ==== Proof.KernelValue.lean ====
/-
  The idealized kernel's two results as functions of its three arguments.

  After the region each output array holds, at (i, r), the sum over n of rows (i, n) · weight (n, col r). The rows array
  is the input flattened, row b·4000 + t being the input's (b, t); the weight's column r is the first matrix's row r
  and its column 384 + r the second matrix's row r. The host then unflattens each [128000, 257] output to
  [32, 4000, 257], element (b, t, r) being the output's (b·4000 + t, r). Composed:
      result (b, t, r) = Σ n < 512, x (b, t, n) · M (r, n),
  the specification, for the first result with the first matrix and for the second with the second.
-/
import proofs.«165531_j19490561590128_2_alg».proof.Proof.OutputRows
import proofs.«165531_j19490561590128_2_alg».proof.Proof.RegionEntry
import proofs.«165531_j19490561590128_2_alg».proof.Proof.Spec
import Idealize.ShloMosaic.Lib.StableHlo.Run

noncomputable section

namespace Cert.KernelIdeal.Whole

open Cert.KernelIdeal Cert.KernelIdeal.Gen Cert.KernelIdeal.Rows Cert.KernelIdeal.Entry
open Idealize.ShloMosaic Idealize.ShloMosaic.TcCoe Idealize.SL.Sem Idealize.ShloMosaic.StableHlo Idealize.ShloMosaic.ValueIdx

/-- Over variables: an output array that is `proj col` of a rows array holding the flattened input and a weight whose
    column `col r` is row r of `M`, unflattened, is the specification. -/
theorem unflatten_eq (col : Fin 257 → Fin 768) (x : S32x4000x512.Idx → EReal) (M : S257x512.Idx → EReal)
    (X : S128000x512.Idx → EReal) (W : S512x768.Idx → EReal)
    (hX : ∀ (b : Fin 32) (t : Fin 4000) (k : Fin 512) (h : b.val * 4000 + t.val < 128000),
      X (ix2 (⟨b.val * 4000 + t.val, h⟩ : Fin 128000) k) = x (ix3 b t k))
    (hW : ∀ (n : Fin 512) (r : Fin 257), W (ix2 n (col r)) = M (ix2 r n)) :
    shapeCast S32x4000x257 (proj col X W) shapeCasts_S128000x257_S32x4000x257 = Cert.Spec.project x M := by
  funext i
  obtain ⟨b, t, r, rfl⟩ : ∃ (b : Fin 32) (t : Fin 4000) (r : Fin 257), i = ix3 b t r := ⟨i 0, i 1, i 2, eq_ix3 i⟩
  have hbt : b.val * 4000 + t.val < 128000 := by have := b.isLt; have := t.isLt; omega
  refine (shapeCast_apply _ _ (ix3 b t r) (ix2 (⟨b.val * 4000 + t.val, hbt⟩ : Fin 128000) r) ?_).trans ?_
  · rw [Shape.rowMajor_val_three, Shape.rowMajor_val_two]
    rfl
  · unfold proj Cert.Spec.project
    refine Finset.sum_congr rfl fun k _ => ?_
    exact congrArg₂ (· * ·) (hX b t k hbt) (hW k r)

variable (m : (ℓ : Loc nD τ sig) → Buf (Elt Ideal) ℓ) (ρ : Dev nD → PrngReg)

/-- The weight array's column r is the first matrix argument's row r. -/
theorem weight_first (c : Dev nD) (n : Fin 512) (r : Fin 257) :
    (V m c main_v9 : S512x768.Idx → EReal) (ix2 n (colFirst r))
      = (m ((c : Thread nD τ).loc main_arg1) : S257x512.Idx → EReal) (ix2 r n) := by
  rw [weight_eq]
  exact packed_first _ _ n r

/-- The weight array's column 384 + r is the second matrix argument's row r. -/
theorem weight_second (c : Dev nD) (n : Fin 512) (r : Fin 257) :
    (V m c main_v9 : S512x768.Idx → EReal) (ix2 n (colSecond r))
      = (m ((c : Thread nD τ).loc main_arg2) : S257x512.Idx → EReal) (ix2 r n) := by
  rw [weight_eq]
  exact packed_second _ _ n r

/-- The first result after the host's unflattening. -/
theorem tail_first (c : Dev nD) :
    (Pipeline.afterTail₀ cfgs (dats m) 0 (V0 m) [hostOps1] c main_v11 : S32x4000x257.Idx → EReal)
      = Cert.Spec.project (m ((c : Thread nD τ).loc main_arg0)) (m ((c : Thread nD τ).loc main_arg1)) := by
  have e : Pipeline.withArrays (cfgs 0).spec c (V0 m c) (fun w => (dats m 0 c).arrAt w (cfgs 0).N) (Proc.devRef .tc main_v10_0)
      = proj colFirst (V m c main_v0) (V m c main_v9) :=
    (Pipeline.withArrays_arr spec0 launch0.win.arr_inj c _ _ 2).trans (final_first m c)
  unfold Pipeline.afterTail₀
  show StableHlo.after hostOps1 _ (Proc.devRef .tc main_v11) = _
  after_results
  refine Eq.trans ?_ (unflatten_eq colFirst _ _ (V m c main_v0) (V m c main_v9)
    (fun b t k h => rows_apply m c b t k) (fun n r => weight_first m c n r))
  exact congrArg (fun A => shapeCast S32x4000x257 A shapeCasts_S128000x257_S32x4000x257) e

/-- The second result after the host's unflattening. -/
theorem tail_second (c : Dev nD) :
    (Pipeline.afterTail₀ cfgs (dats m) 0 (V0 m) [hostOps1] c main_v12 : S32x4000x257.Idx → EReal)
      = Cert.Spec.project (m ((c : Thread nD τ).loc main_arg0)) (m ((c : Thread nD τ).loc main_arg2)) := by
  have e : Pipeline.withArrays (cfgs 0).spec c (V0 m c) (fun w => (dats m 0 c).arrAt w (cfgs 0).N) (Proc.devRef .tc main_v10_1)
      = proj colSecond (V m c main_v0) (V m c main_v9) :=
    (Pipeline.withArrays_arr spec0 launch0.win.arr_inj c _ _ 3).trans (final_second m c)
  unfold Pipeline.afterTail₀
  show StableHlo.after hostOps1 _ (Proc.devRef .tc main_v12) = _
  after_results
  refine Eq.trans ?_ (unflatten_eq colSecond _ _ (V m c main_v0) (V m c main_v9)
    (fun b t k h => rows_apply m c b t k) (fun n r => weight_second m c n r))
  exact congrArg (fun A => shapeCast S32x4000x257 A shapeCasts_S128000x257_S32x4000x257) e

/-- THE RUN, READ: every weakly fair execution of the idealized kernel terminates with each result at the specification of
    the arguments as launched, the arguments unchanged. -/
theorem run : θ_run defs (onTc (τ := τ) (main (F := Ideal))) ⟨m, fun _ => 0, ρ⟩ fun r => ∀ c : Dev nD,
      r.2.mem ((c.tc : Thread nD τ).loc main_v11)
        = Cert.Spec.project (m ((c.tc : Thread nD τ).loc main_arg0)) (m ((c.tc : Thread nD τ).loc main_arg1))
      ∧ r.2.mem ((c.tc : Thread nD τ).loc main_v12)
        = Cert.Spec.project (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v11 (Pipeline.mem_restRefs_of main_v11 (by decide) (by decide))).trans (tail_first m c),
     ((h c).2 main_v12 (Pipeline.mem_restRefs_of main_v12 (by decide) (by decide))).trans (tail_second m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Whole

end
-- ==== Proof.ReferenceValue.lean ====
/-
  The reference's two results are the specification: each `dot_general` contracts the input's last axis with the
  matrix's last axis, so its element (b, t, r) is the sum over n of x (b, t, n) · M (r, n).
-/
import proofs.«165531_j19490561590128_2_alg».proof.Proof.Gen.ReferenceIdeal.Read
import proofs.«165531_j19490561590128_2_alg».proof.Proof.Spec

noncomputable section

namespace Cert.ReferenceIdeal.RefValue

open Cert.ReferenceIdeal Cert.ReferenceIdeal.Gen Idealize.ShloMosaic Idealize.ShloMosaic.ValueIdx

/-- The first result is the projection on the first matrix. -/
theorem first_eq (x : S32x4000x512.Idx → EReal) (M : S257x512.Idx → EReal) :
    Read.val_main_v0 (F := Ideal) x M = Cert.Spec.project x M := by
  funext i
  rw [Read.val_main_v0_apply]
  unfold Cert.Spec.project
  refine Finset.sum_congr rfl fun k _ => ?_
  have el : Read.lidx_main_v0 i k
      = ix3 (⟨(i 0).val, (i 0).isLt⟩ : Fin 32) (⟨(i 1).val, (i 1).isLt⟩ : Fin 4000) k := funext fun a => Fin.ext (by
    match a with
    | ⟨0, _⟩ => rfl
    | ⟨1, _⟩ => rfl
    | ⟨2, _⟩ => rfl)
  have er : Read.ridx_main_v0 i k = ix2 (⟨(i 2).val, (i 2).isLt⟩ : Fin 257) k := funext fun a => Fin.ext (by
    match a with
    | ⟨0, _⟩ => rfl
    | ⟨1, _⟩ => rfl)
  rw [el, er]

/-- The second result is the projection on the second matrix. -/
theorem second_eq (x : S32x4000x512.Idx → EReal) (M : S257x512.Idx → EReal) :
    Read.val_main_v1 (F := Ideal) x M = Cert.Spec.project x M := by
  funext i
  rw [Read.val_main_v1_apply]
  unfold Cert.Spec.project
  refine Finset.sum_congr rfl fun k _ => ?_
  have el : Read.lidx_main_v1 i k
      = ix3 (⟨(i 0).val, (i 0).isLt⟩ : Fin 32) (⟨(i 1).val, (i 1).isLt⟩ : Fin 4000) k := funext fun a => Fin.ext (by
    match a with
    | ⟨0, _⟩ => rfl
    | ⟨1, _⟩ => rfl
    | ⟨2, _⟩ => rfl)
  have er : Read.ridx_main_v1 i k = ix2 (⟨(i 2).val, (i 2).isLt⟩ : Fin 257) k := funext fun a => Fin.ext (by
    match a with
    | ⟨0, _⟩ => rfl
    | ⟨1, _⟩ => rfl)
  rw [el, er]

end Cert.ReferenceIdeal.RefValue

end
-- ==== Proof.lean ====
/-
  Two projections of one batch of rows, computed by one packed matrix product.

  The kernel flattens the [32, 4000, 512] input to 128000 rows, packs the two [257, 512] matrices, transposed, side by
  side into one [512, 768] weight (the first at columns [0, 257), the second at columns [384, 641), zeros elsewhere),
  multiplies 2000 rows at a time by the whole weight, and stores columns [0, 257) and [384, 641) of each product as its
  two outputs, which the host unflattens. The reference contracts the input with each matrix directly. At the ideal
  values both compute, for the input x and a matrix M,
      result (b, t, r) = Σ n < 512, x (b, t, n) · M (r, n)
  — the same sum over the same index set with the factors in the same order: the casts to bf16 are the identity, the
  product into a zero accumulator is the plain sum, the weight's zero columns are never read, and tiling the rows does
  not change a row's sum. No law of the extended reals that can fail at an infinity is used, so the precondition
  (finite inputs) is never opened.

  The three frames are the generated ones (the reference's is its generated run with the results dropped); the
  idealization rewrote nothing, so `preserves` is trivial; `algebraic` sets the kernel's run, read in
  Proof/KernelValue.lean, beside the reference's generated run, read in Proof/ReferenceValue.lean.
-/
import proofs.«165531_j19490561590128_2_alg».proof.Defs
import proofs.«165531_j19490561590128_2_alg».proof.Proof.Gen.Kernel
import proofs.«165531_j19490561590128_2_alg».proof.Proof.Gen.Kernel.Skeleton
import proofs.«165531_j19490561590128_2_alg».proof.Proof.Gen.Kernel.Launch
import proofs.«165531_j19490561590128_2_alg».proof.Proof.Gen.Kernel.Points
import proofs.«165531_j19490561590128_2_alg».proof.Proof.Gen.Kernel.Frame
import proofs.«165531_j19490561590128_2_alg».proof.Proof.Gen.KernelIdeal
import proofs.«165531_j19490561590128_2_alg».proof.Proof.Gen.KernelIdeal.Skeleton
import proofs.«165531_j19490561590128_2_alg».proof.Proof.Gen.KernelIdeal.Launch
import proofs.«165531_j19490561590128_2_alg».proof.Proof.Gen.KernelIdeal.Points
import proofs.«165531_j19490561590128_2_alg».proof.Proof.Gen.KernelIdeal.Frame
import proofs.«165531_j19490561590128_2_alg».proof.Proof.Gen.ReferenceIdeal
import proofs.«165531_j19490561590128_2_alg».proof.Proof.Gen.ReferenceIdeal.Run
import proofs.«165531_j19490561590128_2_alg».proof.Proof.Gen.ReferenceIdeal.Read
import proofs.«165531_j19490561590128_2_alg».proof.Proof.Gen.Pre_finite_inputs
import proofs.«165531_j19490561590128_2_alg».proof.Proof.KernelValue
import proofs.«165531_j19490561590128_2_alg».proof.Proof.ReferenceValue
import Idealize.ShloMosaic.Adequacy
import Idealize.ShloMosaic.Init

noncomputable section

namespace Cert.Proof

open Idealize.ShloMosaic Idealize.SL.Sem Cert.Kernel

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The idealized reference runs and leaves its arguments as launched: its run, the results dropped. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-- The idealization rewrote no operation. -/
theorem preserves : Cert.preserves_Kernel_KernelIdeal := trivial

/-- From memories agreeing on the arguments both idealized programs end with each result at the specification of the
    arguments: the kernel's by its run read back, the reference's by its two contractions read at an index. -/
theorem algebraic : Cert.algebraic_KernelIdeal_ReferenceIdeal := by
  intro m ρ m' ρ' _ hagree
  refine ⟨_, _, Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1]
    exact (Cert.ReferenceIdeal.Read.val_main_v0_eq _ _).trans (Cert.ReferenceIdeal.RefValue.first_eq _ _)
  · rw [(hagree c).1, (hagree c).2.2]
    exact (Cert.ReferenceIdeal.Read.val_main_v1_eq _ _).trans (Cert.ReferenceIdeal.RefValue.second_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
